-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S_ : Shape := ⟨0, ![]⟩
abbrev S512x128 : Shape := ⟨2, ![512, 128]⟩
abbrev S16x128 : Shape := ⟨2, ![16, 128]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S100000x128 : Shape := ⟨2, ![100000, 128]⟩
abbrev S2000x512 : Shape := ⟨2, ![2000, 512]⟩
abbrev S2000x128 : Shape := ⟨2, ![2000, 128]⟩
abbrev S100000x16 : Shape := ⟨2, ![100000, 16]⟩
abbrev S3300000x16 : Shape := ⟨2, ![3300000, 16]⟩
abbrev S1x16 : Shape := ⟨2, ![1, 16]⟩
abbrev S2000x16 : Shape := ⟨2, ![2000, 16]⟩
abbrev S100000x1 : Shape := ⟨2, ![100000, 1]⟩

abbrev nBuf : Space → Nat
  | .hbm => 124
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .i32⟩
  | .hbm, ⟨7, _⟩ => ⟨S_, .f32⟩
  | .hbm, ⟨8, _⟩ => ⟨S512x128, .f32⟩
  | .hbm, ⟨9, _⟩ => ⟨S_, .i32⟩
  | .hbm, ⟨10, _⟩ => ⟨S_, .f32⟩
  | .hbm, ⟨11, _⟩ => ⟨S16x128, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S100000x128, .f32⟩
  | .hbm, ⟨53, _⟩ => ⟨S100000x16, .f32⟩
  | .hbm, ⟨54, _⟩ => ⟨S3300000x1, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x16, .f32⟩
  | .hbm, ⟨65, _⟩ => ⟨S3300000x16, .f32⟩
  | .hbm, ⟨66, _⟩ => ⟨S_, .f32⟩
  | .hbm, ⟨67, _⟩ => ⟨S100000x16, .f32⟩
  | .hbm, ⟨68, _⟩ => ⟨S3300000x1, .i32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S100000x16, .f32⟩
  | .hbm, ⟨73, _⟩ => ⟨S_, .f32⟩
  | .hbm, ⟨74, _⟩ => ⟨S100000x16, .f32⟩
  | .hbm, ⟨75, _⟩ => ⟨S100000x16, .i1⟩
  | .hbm, ⟨76, _⟩ => ⟨S_, .f32⟩
  | .hbm, ⟨77, _⟩ => ⟨S100000x16, .f32⟩
  | .hbm, ⟨78, _⟩ => ⟨S100000x16, .i1⟩
  | .hbm, ⟨79, _⟩ => ⟨S_, .f32⟩
  | .hbm, ⟨80, _⟩ => ⟨S_, .f32⟩
  | .hbm, ⟨81, _⟩ => ⟨S100000x16, .f32⟩
  | .hbm, ⟨82, _⟩ => ⟨S100000x16, .f32⟩
  | .hbm, ⟨83, _⟩ => ⟨S100000x16, .f32⟩
  | .hbm, ⟨84, _⟩ => ⟨S_, .f32⟩
  | .hbm, ⟨85, _⟩ => ⟨S100000x16, .f32⟩
  | .hbm, ⟨86, _⟩ => ⟨S100000x16, .f32⟩
  | .hbm, ⟨87, _⟩ => ⟨S100000x16, .f32⟩
  | .hbm, ⟨88, _⟩ => ⟨S100000x128, .f32⟩
  | .hbm, ⟨89, _⟩ => ⟨S100000x16, .f32⟩
  | .hbm, ⟨90, _⟩ => ⟨S3300000x1, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S3300000x16, .f32⟩
  | .hbm, ⟨100, _⟩ => ⟨S3300000x16, .f32⟩
  | .hbm, ⟨101, _⟩ => ⟨S3300000x16, .f32⟩
  | .hbm, ⟨102, _⟩ => ⟨S_, .f32⟩
  | .hbm, ⟨103, _⟩ => ⟨S100000x16, .f32⟩
  | .hbm, ⟨104, _⟩ => ⟨S3300000x1, .i32⟩
  | .hbm, ⟨105, _⟩ => ⟨S100000x16, .f32⟩
  | .hbm, ⟨106, _⟩ => ⟨S1x16, .f32⟩
  | .hbm, ⟨107, _⟩ => ⟨S100000x16, .f32⟩
  | .hbm, ⟨108, _⟩ => ⟨S100000x16, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S100000x1, .f32⟩
  | .hbm, ⟨115, _⟩ => ⟨S100000x16, .f32⟩
  | .hbm, ⟨116, _⟩ => ⟨S100000x16, .f32⟩
  | .hbm, ⟨117, _⟩ => ⟨S100000x16, .f32⟩
  | .hbm, ⟨118, _⟩ => ⟨S_, .f32⟩
  | .hbm, ⟨119, _⟩ => ⟨S100000, .f32⟩
  | .hbm, ⟨120, _⟩ => ⟨S100000x1, .f32⟩
  | .hbm, ⟨121, _⟩ => ⟨S100000x1, .f32⟩
  | .hbm, ⟨122, _⟩ => ⟨S100000x16, .f32⟩
  | .hbm, ⟨123, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x16, .f32⟩
  | .local _ .vmem, ⟨6, _⟩ => ⟨S2000x16, .f32⟩
  | .local _ .vmem, ⟨7, _⟩ => ⟨S16x128, .f32⟩
  | .local _ .vmem, ⟨8, _⟩ => ⟨S2000x128, .f32⟩
  | .local _ .vmem, ⟨9, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call3_cst : Ref sig .tc := ⟨.hbm, 73, rfl⟩
abbrev main_call3_v0 : Ref sig .tc := ⟨.hbm, 74, rfl⟩
abbrev main_call3_v1 : Ref sig .tc := ⟨.hbm, 75, rfl⟩
abbrev main_call3_cst_0 : Ref sig .tc := ⟨.hbm, 76, rfl⟩
abbrev main_call3_v2 : Ref sig .tc := ⟨.hbm, 77, rfl⟩
abbrev main_call3_v3 : Ref sig .tc := ⟨.hbm, 78, rfl⟩
abbrev main_call3_cst_1 : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_v4 : Ref sig .tc := ⟨.hbm, 82, rfl⟩
abbrev main_call3_v5 : Ref sig .tc := ⟨.hbm, 83, rfl⟩
abbrev main_call3_cst_2 : Ref sig .tc := ⟨.hbm, 84, rfl⟩
abbrev main_call3_v6 : Ref sig .tc := ⟨.hbm, 85, rfl⟩
abbrev main_call3_v7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_cst : Ref sig .tc := ⟨.hbm, 109, rfl⟩
abbrev main_call4_v0 : Ref sig .tc := ⟨.hbm, 110, rfl⟩
abbrev main_call4_cst_0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_cst_1 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_v69 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S512x16_S512x128_000_01120 : S512x16.Pads (![0, 0] : Fin 2 → Nat) ![0, 112] ![0, 0] S512x128
  h_S_ : 0 < S_.numel
  pads_S16x16_S16x128_000_01120 : S16x16.Pads (![0, 0] : Fin 2 → Nat) ![0, 112] ![0, 0] S16x128
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  slices_S100000x128_S100000x16_0_0 : S100000x128.Slices ![0, 0] S100000x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  reducesTo_S100000x16_S100000_d1 : S100000x16.ReducesTo [1] S100000
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x128_S2000x128_1_0_0_1_n_n_wf : DotDims.WF S2000x512 S512x128 S2000x128 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x128_S2000x128_1_0_0_1_n_n_wf : DotDims.WF S2000x16 S16x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x16, .f32⟩
  | 5 => ⟨S16, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S100000x16, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S3300000x1, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x16, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .i1⟩
  | 69 => ⟨S_, .f32⟩
  | 70 => ⟨S100000x16, .f32⟩
  | 71 => ⟨S100000x16, .i1⟩
  | 72 => ⟨S_, .f32⟩
  | 73 => ⟨S_, .f32⟩
  | 74 => ⟨S100000x16, .f32⟩
  | 75 => ⟨S100000x16, .f32⟩
  | 76 => ⟨S100000x16, .f32⟩
  | 77 => ⟨S_, .f32⟩
  | 78 => ⟨S100000x16, .f32⟩
  | 79 => ⟨S100000x16, .f32⟩
  | 80 => ⟨S100000x16, .f32⟩
  | 81 => ⟨S100000x16, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S3300000x1, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x16, .f32⟩
  | 111 => ⟨S3300000x16, .f32⟩
  | 112 => ⟨S3300000x16, .f32⟩
  | 113 => ⟨S_, .f32⟩
  | 114 => ⟨S100000x16, .f32⟩
  | 115 => ⟨S3300000x1, .i32⟩
  | 116 => ⟨S100000x16, .f32⟩
  | 117 => ⟨S1x16, .f32⟩
  | 118 => ⟨S100000x16, .f32⟩
  | 119 => ⟨S100000x16, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x16, .f32⟩
  | 127 => ⟨S100000x16, .f32⟩
  | _ => ⟨S100000x512, .f32⟩

abbrev hbmTy0_1 (i : Nat) : BufTy := match i % 128 with
  | 0 => ⟨S100000x16, .f32⟩
  | 1 => ⟨S_, .f32⟩
  | 2 => ⟨S100000, .f32⟩
  | 3 => ⟨S100000x1, .f32⟩
  | 4 => ⟨S100000x1, .f32⟩
  | 5 => ⟨S100000x16, .f32⟩
  | 6 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_cst_1 : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_v4 : Ref sig .tc := ⟨.hbm, 75, rfl⟩
abbrev main_call1_v5 : Ref sig .tc := ⟨.hbm, 76, rfl⟩
abbrev main_call1_cst_2 : Ref sig .tc := ⟨.hbm, 77, rfl⟩
abbrev main_call1_v6 : Ref sig .tc := ⟨.hbm, 78, rfl⟩
abbrev main_call1_v7 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v80 : Ref sig .tc := ⟨.hbm, 134, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  dot_S100000x512_S512x16_S100000x16_1_0_0_1_n_n_wf : DotDims.WF S100000x512 S512x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KRun.lean ====
/-
  The idealized kernel program's run, with its result named.

  @main is thirteen segments: stretches of host operations around two launches of the row-tiled linear
  kernel. The contents of every buffer at each segment boundary are a fold from the launch memory: a
  stretch applies its operations in order; a launch leaves its three arrays at what its write-backs leave
  and every other buffer as it found it. Every weakly fair execution terminates with every unscoped
  buffer at the last boundary's contents. Read at the result buffer this names the program's value; read
  at the six argument buffers it says they end as launched.
-/
import proofs.«150639_j4406636445725_1_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- From any memory with zero counters every weakly fair execution of @main terminates, nothing faulting,
    with the result buffer at the last boundary's contents and the six arguments as launched. -/
theorem run_out : θ_run defs (onTc (τ := τ) (main (F := F))) ⟨m, fun _ => 0, ρ⟩ (fun r => ∀ c : Dev nD,
      r.2.mem ((c.tc : Thread nD τ).loc main_v69) = W13 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v69 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Hand

end
-- ==== Proof.RefOps.lean ====
import proofs.«150639_j4406636445725_1_alg».proof.Proof.Gen.ReferenceIdeal
import Idealize.ShloMosaic.Lib.StableHlo.Run

/-! The reference program's @main as lists of its host operations, in program order, a called function's operations written at the
    call with the call's arguments and buffers in place of the function's. Seven consecutive segments and their concatenation. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The graph's node lists and the degree normaliser. The node numbers `0 … 99999`; the edge table's two rows, each followed by the
    node numbers (every node gets a self-loop): the source list and the target list, 3300000 entries each; the degree of a node, the
    number of list entries whose target it is (ones scatter-added at the targets into zeros); and `dinv`, its inverse square root where the
    degree is positive and `0` elsewhere (the comparison, the `rsqrt`, then @_where's three operations: the zero converted to its own
    type, broadcast, the select). (21 operations.) -/
abbrev opsA : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]

/-- The first layer's linear map: the features times the first weight matrix (100000×512 by 512×16). (1 operation.) -/
abbrev opsB : List (HloOp τ sig (Elt F)) :=
  [ StableHlo.binary main_arg0 main_arg2 main_v15 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- The edge normaliser, first layer. Each index list is wrapped (an entry below zero has 100000 added), `dinv` is gathered at the sources
    and at the targets, and the two gathered values are multiplied: the weight `dinv[src] * dinv[tgt]` of every edge. (19 operations.) -/
abbrev opsC : List (HloOp τ sig (Elt F)) :=
  [ StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v3 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v3 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v14 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v6 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v6 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v14 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The first aggregation and ELU. The transformed features' rows gathered at the (wrapped) sources, each scaled by its edge's weight,
    scatter-added at the targets into zeros; the first bias added to every row; then @elu's fifteen operations: `x > 0` (twice), the
    argument with its positive entries replaced by zero (@_where_0), `expm1` of that times one, and the select between `x` and it (@_where_1). (34 operations.) -/
abbrev opsD : List (HloOp τ sig (Elt F)) :=
  [ StableHlo.unary main_v30 main_v31 (broadcastInDim S3300000x1 ![0] bcast_S3300000_S3300000x1_0 : (⟨S3300000, .f32⟩ : BufTy).Contents (Elt F) → (⟨S3300000x1, .f32⟩ : BufTy).Contents (Elt F)),
    StableHlo.nullary main_c_6 (constantI S_ 32 0#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v3 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v34 (broadcastInDim S3300000 ![] bcast_S_S3300000 : (⟨S_, .i32⟩ : BufTy).Contents (Elt F) → (⟨S3300000, .i32⟩ : BufTy).Contents (Elt F)),
    StableHlo.binary main_v3 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v15 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    StableHlo.nullary main_cst_8 (constant S_ .f32 0x00000000#32),
    StableHlo.unary main_cst_8 main_v41 (broadcastInDim S100000x16 ![] bcast_S_S100000x16 : (⟨S_, .f32⟩ : BufTy).Contents (Elt F) → (⟨S100000x16, .f32⟩ : BufTy).Contents (Elt F)),
    StableHlo.unary main_v6 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg3 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)),
    StableHlo.TRef.nullary main_call1.cst (constant S_ .f32 0x00000000#32),
    StableHlo.TRef.unary main_call1.cst main_call1.v0 (broadcastInDim S100000x16 ![] bcast_S_S100000x16),
    StableHlo.TRef.binary (.of main_v46 : StableHlo.TRef sig ⟨S100000x16, .f32⟩) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (.of main_v46 : StableHlo.TRef sig ⟨S100000x16, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (.of main_v46 : StableHlo.TRef sig ⟨S100000x16, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (.of main_v46 : StableHlo.TRef sig ⟨S100000x16, .f32⟩) main_call1.v7 main_call1.call1.v0 select ]

/-- The second layer's linear map: the activations times the second weight matrix (100000×16 by 16×16). (1 operation.) -/
abbrev opsE : List (HloOp τ sig (Elt F)) :=
  [ StableHlo.binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- The edge normaliser again, for the second layer: the same wrapped gathers of `dinv` at sources and targets and their product. (19 operations.) -/
abbrev opsF : List (HloOp τ sig (Elt F)) :=
  [ StableHlo.nullary main_c_9 (constantI S_ 32 0#32),
    StableHlo.unary main_c_9 main_v49 (broadcastInDim S3300000 ![] bcast_S_S3300000 : (⟨S_, .i32⟩ : BufTy).Contents (Elt F) → (⟨S3300000, .i32⟩ : BufTy).Contents (Elt F)),
    StableHlo.binary main_v3 main_v49 main_v50 (cmpi .slt : (⟨S3300000, .i32⟩ : BufTy).Contents (Elt F) → (⟨S3300000, .i32⟩ : BufTy).Contents (Elt F) → (⟨S3300000, .i1⟩ : BufTy).Contents (Elt F)),
    StableHlo.nullary main_c_10 (constantI S_ 32 100000#32),
    StableHlo.unary main_c_10 main_v51 (broadcastInDim S3300000 ![] bcast_S_S3300000 : (⟨S_, .i32⟩ : BufTy).Contents (Elt F) → (⟨S3300000, .i32⟩ : BufTy).Contents (Elt F)),
    StableHlo.binary main_v3 main_v51 main_v52 (addi : (⟨S3300000, .i32⟩ : BufTy).Contents (Elt F) → (⟨S3300000, .i32⟩ : BufTy).Contents (Elt F) → (⟨S3300000, .i32⟩ : BufTy).Contents (Elt F)),
    StableHlo.ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v53 main_v54 (broadcastInDim S3300000x1 ![0] bcast_S3300000_S3300000x1_0 : (⟨S3300000, .i32⟩ : BufTy).Contents (Elt F) → (⟨S3300000x1, .i32⟩ : BufTy).Contents (Elt F)),
    StableHlo.binary main_v14 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_11 (constantI S_ 32 0#32),
    StableHlo.unary main_c_11 main_v56 (broadcastInDim S3300000 ![] bcast_S_S3300000 : (⟨S_, .i32⟩ : BufTy).Contents (Elt F) → (⟨S3300000, .i32⟩ : BufTy).Contents (Elt F)),
    StableHlo.binary main_v6 main_v56 main_v57 (cmpi .slt : (⟨S3300000, .i32⟩ : BufTy).Contents (Elt F) → (⟨S3300000, .i32⟩ : BufTy).Contents (Elt F) → (⟨S3300000, .i1⟩ : BufTy).Contents (Elt F)),
    StableHlo.nullary main_c_12 (constantI S_ 32 100000#32),
    StableHlo.unary main_c_12 main_v58 (broadcastInDim S3300000 ![] bcast_S_S3300000 : (⟨S_, .i32⟩ : BufTy).Contents (Elt F) → (⟨S3300000, .i32⟩ : BufTy).Contents (Elt F)),
    StableHlo.binary main_v6 main_v58 main_v59 (addi : (⟨S3300000, .i32⟩ : BufTy).Contents (Elt F) → (⟨S3300000, .i32⟩ : BufTy).Contents (Elt F) → (⟨S3300000, .i32⟩ : BufTy).Contents (Elt F)),
    StableHlo.ternary main_v57 main_v59 main_v6 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v60 main_v61 (broadcastInDim S3300000x1 ![0] bcast_S3300000_S3300000x1_0 : (⟨S3300000, .i32⟩ : BufTy).Contents (Elt F) → (⟨S3300000x1, .i32⟩ : BufTy).Contents (Elt F)),
    StableHlo.binary main_v14 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v55 main_v62 main_v63 (mulf : (⟨S3300000, .f32⟩ : BufTy).Contents (Elt F) → (⟨S3300000, .f32⟩ : BufTy).Contents (Elt F) → (⟨S3300000, .f32⟩ : BufTy).Contents (Elt F)) ]

/-- The second aggregation and the log-softmax. Gather at the sources, scale by the edge weights, scatter-add at the targets, add the second
    bias; then @log_softmax's fifteen operations: each row's maximum (folded from `-∞`, and once more against `-∞`), the row minus its
    maximum, the exponentials' row sum, its logarithm, and the shifted row minus that logarithm. (34 operations.) -/
abbrev opsG : List (HloOp τ sig (Elt F)) :=
  [ StableHlo.unary main_v63 main_v64 (broadcastInDim S3300000x1 ![0] bcast_S3300000_S3300000x1_0 : (⟨S3300000, .f32⟩ : BufTy).Contents (Elt F) → (⟨S3300000x1, .f32⟩ : BufTy).Contents (Elt F)),
    StableHlo.nullary main_c_13 (constantI S_ 32 0#32),
    StableHlo.unary main_c_13 main_v65 (broadcastInDim S3300000 ![] bcast_S_S3300000 : (⟨S_, .i32⟩ : BufTy).Contents (Elt F) → (⟨S3300000, .i32⟩ : BufTy).Contents (Elt F)),
    StableHlo.binary main_v3 main_v65 main_v66 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v67 (broadcastInDim S3300000 ![] bcast_S_S3300000 : (⟨S_, .i32⟩ : BufTy).Contents (Elt F) → (⟨S3300000, .i32⟩ : BufTy).Contents (Elt F)),
    StableHlo.binary main_v3 main_v67 main_v68 (addi : (⟨S3300000, .i32⟩ : BufTy).Contents (Elt F) → (⟨S3300000, .i32⟩ : BufTy).Contents (Elt F) → (⟨S3300000, .i32⟩ : BufTy).Contents (Elt F)),
    StableHlo.ternary main_v66 main_v68 main_v3 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v69 main_v70 (broadcastInDim S3300000x1 ![0] bcast_S3300000_S3300000x1_0 : (⟨S3300000, .i32⟩ : BufTy).Contents (Elt F) → (⟨S3300000x1, .i32⟩ : BufTy).Contents (Elt F)),
    StableHlo.binary main_v48 main_v70 main_v71 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v64 main_v72 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v72 main_v71 main_v73 (mulf : (⟨S3300000x16, .f32⟩ : BufTy).Contents (Elt F) → (⟨S3300000x16, .f32⟩ : BufTy).Contents (Elt F) → (⟨S3300000x16, .f32⟩ : BufTy).Contents (Elt F)),
    StableHlo.nullary main_cst_15 (constant S_ .f32 0x00000000#32),
    StableHlo.unary main_cst_15 main_v74 (broadcastInDim S100000x16 ![] bcast_S_S100000x16 : (⟨S_, .f32⟩ : BufTy).Contents (Elt F) → (⟨S100000x16, .f32⟩ : BufTy).Contents (Elt F)),
    StableHlo.unary main_v6 main_v75 (broadcastInDim S3300000x1 ![0] bcast_S3300000_S3300000x1_0 : (⟨S3300000, .i32⟩ : BufTy).Contents (Elt F) → (⟨S3300000x1, .i32⟩ : BufTy).Contents (Elt F)),
    StableHlo.ternary main_v74 main_v75 main_v73 main_v76 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg5 main_v77 (broadcastInDim S1x16 ![1] bcast_S16_S1x16_1 : (⟨S16, .f32⟩ : BufTy).Contents (Elt F) → (⟨S1x16, .f32⟩ : BufTy).Contents (Elt F)),
    StableHlo.unary main_v77 main_v78 (broadcastInDim S100000x16 ![0, 1] bcast_S1x16_S100000x16_0_1 : (⟨S1x16, .f32⟩ : BufTy).Contents (Elt F) → (⟨S100000x16, .f32⟩ : BufTy).Contents (Elt F)),
    StableHlo.binary main_v76 main_v78 main_v79 (addf : (⟨S100000x16, .f32⟩ : BufTy).Contents (Elt F) → (⟨S100000x16, .f32⟩ : BufTy).Contents (Elt F) → (⟨S100000x16, .f32⟩ : BufTy).Contents (Elt F)),
    StableHlo.TRef.nullary main_call2.cst (constant S_ .f32 0xFF800000#32),
    StableHlo.TRef.binary (.of main_v79 : StableHlo.TRef sig ⟨S100000x16, .f32⟩) main_call2.cst main_call2.v0 (fun x v => Host.reduce FloatOps.maximumf x v reducesTo_S100000x16_S100000_d1 h_S_),
    StableHlo.TRef.nullary main_call2.cst_0 (constant S_ .f32 0xFF800000#32),
    StableHlo.TRef.unary main_call2.cst_0 main_call2.v1 (broadcastInDim S100000 ![] bcast_S_S100000),
    StableHlo.TRef.binary main_call2.v1 main_call2.v0 main_call2.v2 maximumf,
    StableHlo.TRef.unary main_call2.v2 main_call2.v3 (broadcastInDim S100000x1 ![0] bcast_S100000_S100000x1_0),
    StableHlo.TRef.unary main_call2.v3 main_call2.v4 (broadcastInDim S100000x16 ![0, 1] bcast_S100000x1_S100000x16_0_1),
    StableHlo.TRef.binary (.of main_v79 : StableHlo.TRef sig ⟨S100000x16, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S100000x16_S100000_d1 h_S_),
    StableHlo.TRef.unary main_call2.v7 main_call2.v8 (broadcastInDim S100000x1 ![0] bcast_S100000_S100000x1_0),
    StableHlo.TRef.unary main_call2.v8 main_call2.v9 Host.log,
    StableHlo.TRef.unary main_call2.v9 main_call2.v10 (broadcastInDim S100000x16 ![0, 1] bcast_S100000x1_S100000x16_0_1),
    StableHlo.TRef.binary main_call2.v5 main_call2.v10 main_call2.v11 subf ]

/-- The whole of @main: the seven segments in order (129 operations). -/
abbrev ops : List (HloOp τ sig (Elt F)) := opsA ++ opsB ++ opsC ++ opsD ++ opsE ++ opsF ++ opsG

end Cert.ReferenceIdeal.Hand

end
-- ==== Proof.RefRun.lean ====
import proofs.«150639_j4406636445725_1_alg».proof.Proof.RefOps
import Idealize.ShloMosaic.Lib.StableHlo.Run

/-! # The reference program's run

The reference is a two-layer graph convolution on 100000 nodes and 3200000 edges, all of it host operations: the edge table's
source and target lists with a self-loop per node, the degree and its inverse square root, and per layer a linear map, the
edges' weights `dinv[src] * dinv[tgt]`, the gather–scale–scatter-add aggregation and a bias; ELU between the layers and a
row-wise log-softmax at the end. Its @main calls three functions (@_where, @elu — which calls @_where_0 and @_where_1 —,
@log_softmax); the imported lists write each callee's operations at its call.

This module proves that @main IS that list run in order (`main_eq`), that every operation stays within the TensorCore's
buffers (`ops_sub`), and concludes with the run: every weakly fair execution terminates with each buffer at the fold of the
operations' results over the launch contents (`run_main`). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main is that straight line. The two windows of statements and the five functions' definitions unfolded at their calls (a record's
    fields at the buffers the call names), both sides are one chain of host-operation steps once the sequencing is re-associated
    (`bind_assoc`, `pure_bind`); the concatenation of the seven segments reduces to the list of the 129 operations by computation. -/
theorem main_eq (c : Dev nD) : main (F := F) c = seq ops := by
  simp only [main, main_part0, main_part1, fn_where.body, fn_where_0.body, fn_where_1.body, fn_elu.body, fn_log_softmax.body,
    bind_assoc, pure_bind]
  rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- The node lists and the degree normaliser touch TensorCore buffers only: one fact per operation, in order. -/
private theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub ..⟩

/-- So does the first linear map. -/
private theorem opsB_sub : (opsB : List (HloOp τ sig (Elt F))).Forall fun op => op.bufs ⊆ tcRefs τ sig :=
  binary_bufs_sub ..

/-- So does an edge normaliser: per index list the zero and its broadcast, the comparison, the node count and its broadcast, the sum,
    the select, the column of indices, the gather; then the product. -/
private theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub ..⟩

/-- So do the first aggregation (nineteen operations) and ELU (fifteen). -/
private theorem opsD_sub : (opsD : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- So does the second linear map. -/
private theorem opsE_sub : (opsE : List (HloOp τ sig (Elt F))).Forall fun op => op.bufs ⊆ tcRefs τ sig :=
  binary_bufs_sub ..

/-- So does the second edge normaliser, operation for operation as the first. -/
private theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub ..⟩

/-- So do the second aggregation (nineteen operations) and the log-softmax (fifteen). -/
private theorem opsG_sub : (opsG : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every operation of @main touches TensorCore buffers only: a concatenation's operations are its parts'. -/
theorem ops_sub : (ops : List (HloOp τ sig (Elt F))).Forall fun op => op.bufs ⊆ tcRefs τ sig :=
  List.forall_append.2 ⟨List.forall_append.2 ⟨List.forall_append.2 ⟨List.forall_append.2 ⟨List.forall_append.2
    ⟨List.forall_append.2 ⟨opsA_sub, opsB_sub⟩, opsC_sub⟩, opsD_sub⟩, opsE_sub⟩, opsF_sub⟩, opsG_sub⟩

/-- At the compiled mesh, for any float values, from any memory with zero counters: every weakly fair execution of @main on the
    TensorCores terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RelBase.lean ====
/-
  Shared vocabulary for comparing the two programs' buffers: the buffer contents of each program over the
  extended reals, and the fold of a concatenated list of host operations as the fold of its second part over
  the fold of its first.
-/
import proofs.«150639_j4406636445725_1_alg».proof.Proof.Gen.KernelIdeal.Launch
import proofs.«150639_j4406636445725_1_alg».proof.Proof.RefOps
import Idealize.ShloMosaic.PureOps.Ideal

noncomputable section

namespace Cert.Bridge

open Idealize.ShloMosaic Idealize.ShloMosaic.TcCoe Idealize.SL.Sem Idealize.ShloMosaic.StableHlo

/-- Buffer contents of the kernel's program over the extended reals. -/
abbrev VK := Valuation Cert.KernelIdeal.τ Cert.KernelIdeal.sig (Elt Ideal)
/-- Buffer contents of the reference's program over the extended reals. -/
abbrev VR := Valuation Cert.ReferenceIdeal.τ Cert.ReferenceIdeal.sig (Elt Ideal)

/-- After one simplification pass has read a fold of host operations at a buffer, the reads it could not reach (those
    inside a concatenation's list of parts) are rewritten one operation at a time: an operation's result at the
    buffer it writes is its function of its operands' contents, and at any other buffer what was there before. -/
macro "results_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Running two lists of host operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Bridge

end
-- ==== Proof.RefArgs.lean ====
/-
  The reference's program never writes an argument: each of its 129 host operations writes a buffer of its own,
  so the fold of all of them, read at an argument's buffer, is what the launch put there.
-/
import proofs.«150639_j4406636445725_1_alg».proof.Proof.RelBase

set_option maxRecDepth 16384

noncomputable section

namespace Cert.Bridge

open Idealize.ShloMosaic Idealize.ShloMosaic.TcCoe Idealize.SL.Sem Idealize.ShloMosaic.StableHlo
open Cert.ReferenceIdeal.Hand (opsA opsB opsC opsD opsE opsF opsG ops)

local notation "r[" b "]" => (Proc.devRef (τ := Cert.ReferenceIdeal.τ) Proc.tc b)

variable (Y : VR)

/-- The whole list as its seven segments run in turn. -/
theorem after_ops : after (ops (F := Ideal)) Y
    = after opsG (after opsF (after opsE (after opsD (after opsC (after opsB (after (opsA (F := Ideal)) Y)))))) := by
  rw [show (ops (F := Ideal)) = opsA ++ opsB ++ opsC ++ opsD ++ opsE ++ opsF ++ opsG from rfl,
    after_append, after_append, after_append, after_append, after_append, after_append]

set_option maxHeartbeats 2000000 in
/-- The features end as launched. -/
theorem ref_kept_arg0 : after (ops (F := Ideal)) Y r[Cert.ReferenceIdeal.main_arg0] = Y r[Cert.ReferenceIdeal.main_arg0] := by
  rw [after_ops]; after_results_simp
set_option maxHeartbeats 2000000 in
/-- The edge table ends as launched. -/
theorem ref_kept_arg1 : after (ops (F := Ideal)) Y r[Cert.ReferenceIdeal.main_arg1] = Y r[Cert.ReferenceIdeal.main_arg1] := by
  rw [after_ops]; after_results_simp
set_option maxHeartbeats 2000000 in
/-- The first weight ends as launched. -/
theorem ref_kept_arg2 : after (ops (F := Ideal)) Y r[Cert.ReferenceIdeal.main_arg2] = Y r[Cert.ReferenceIdeal.main_arg2] := by
  rw [after_ops]; after_results_simp
set_option maxHeartbeats 2000000 in
/-- The first bias ends as launched. -/
theorem ref_kept_arg3 : after (ops (F := Ideal)) Y r[Cert.ReferenceIdeal.main_arg3] = Y r[Cert.ReferenceIdeal.main_arg3] := by
  rw [after_ops]; after_results_simp
set_option maxHeartbeats 2000000 in
/-- The second weight ends as launched. -/
theorem ref_kept_arg4 : after (ops (F := Ideal)) Y r[Cert.ReferenceIdeal.main_arg4] = Y r[Cert.ReferenceIdeal.main_arg4] := by
  rw [after_ops]; after_results_simp
set_option maxHeartbeats 2000000 in
/-- The second bias ends as launched. -/
theorem ref_kept_arg5 : after (ops (F := Ideal)) Y r[Cert.ReferenceIdeal.main_arg5] = Y r[Cert.ReferenceIdeal.main_arg5] := by
  rw [after_ops]; after_results_simp

end Cert.Bridge

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibPadLinear.lean ====
/-
  A padded weight matrix under a row-by-column product, read back through a column slice.

  Over the extended reals, for a left operand `x` of `M × K` entries and a weight `w` of `K × N` entries:
  the host's matrix product `x · w` at `(i, j)` is the sum over the inner coordinate `k` of `x (i, k) · w (k, j)`;
  a weight padded on the right with extra columns (whatever the padding value) agrees with `w` on its first `N`
  columns; so column `j < N` of a product with the padded weight is that same sum: the padding's columns never
  enter it, and no finiteness is needed.
-/
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Idealize.ShloMosaic.ValueIdx

/-- Entry `(i, j)` of the product of an `M × K` array with a `K × N` array: the sum over the inner coordinate. -/
def rowCol {M K N : ℕ} (x : (⟨2, ![M, K]⟩ : Shape).Idx → EReal) (w : (⟨2, ![K, N]⟩ : Shape).Idx → EReal)
    (i : Fin M) (j : Fin N) : EReal :=
  ∑ k : Fin K, x (ix2 i k) * w (ix2 k j)

/-- The host's plain matrix product (left operand's second axis against the right operand's first, no batch
    axis) at `(i, j)` is the row-by-column sum, whatever the precision and the schedule. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j) = rowCol lhs rhs i j := by
  unfold rowCol
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

/-- A `K × N` array padded on the high side of its second axis to `K × N'` (no low padding, no interior padding)
    reads the array itself at every column below `N`. -/
theorem pad_cols_apply {K N N' : ℕ} {α : Type} (hi : Fin 2 → ℕ) (w : (⟨2, ![K, N]⟩ : Shape).Idx → α) {u : Shape} (v : u.Idx → α)
    (hp : (⟨2, ![K, N]⟩ : Shape).Pads ![0, 0] hi ![0, 0] ⟨2, ![K, N']⟩) (hu : 0 < u.numel)
    (k : Fin K) (j : Fin N) (j' : Fin N') (hj : j'.val = j.val) :
    pad ⟨2, ![K, N']⟩ ![0, 0] hi ![0, 0] w v hp hu (ix2 k j') = w (ix2 k j) := by
  refine pad_apply_of_inside ![0, 0] hi ![0, 0] w v hp hu (ix2 k j') (ix2 k j) fun a => ?_
  match a with
  | ⟨0, _⟩ => show k.val = 0 + k.val * (0 + 1); omega
  | ⟨1, _⟩ => show j'.val = 0 + j.val * (0 + 1); omega

/-- The first `N` columns of an `M × N'` array: the slice at zero offsets read at `(i, j)`. -/
theorem slice_cols_apply {M N N' : ℕ} {α : Type} (y : (⟨2, ![M, N']⟩ : Shape).Idx → α)
    (hs : (⟨2, ![M, N']⟩ : Shape).Slices ![0, 0] ⟨2, ![M, N]⟩) (i : Fin M) (j : Fin N) (j' : Fin N') (hj : j'.val = j.val) :
    extractStridedSlice ⟨2, ![M, N]⟩ ![0, 0] y hs (ix2 i j) = y (ix2 i j') := by
  refine extractStridedSlice_apply ![0, 0] y hs (ix2 i j) (ix2 i j') fun a => ?_
  match a with
  | ⟨0, _⟩ => show i.val = 0 + i.val; omega
  | ⟨1, _⟩ => show j'.val = 0 + j.val; omega

/-- The row-by-column sum against a right-padded weight, at a column of the unpadded weight, is the sum against the
    weight itself: every term reads the weight at a column below `N`. -/
theorem rowCol_pad_cols {M K N N' : ℕ} (hi : Fin 2 → ℕ) (x : (⟨2, ![M, K]⟩ : Shape).Idx → EReal)
    (w : (⟨2, ![K, N]⟩ : Shape).Idx → EReal) {u : Shape} (v : u.Idx → EReal)
    (hp : (⟨2, ![K, N]⟩ : Shape).Pads ![0, 0] hi ![0, 0] ⟨2, ![K, N']⟩) (hu : 0 < u.numel)
    (i : Fin M) (j : Fin N) (j' : Fin N') (hj : j'.val = j.val) :
    rowCol x (pad ⟨2, ![K, N']⟩ ![0, 0] hi ![0, 0] w v hp hu) i j' = rowCol x w i j := by
  unfold rowCol
  exact Finset.sum_congr rfl fun k _ => by rw [pad_cols_apply hi w v hp hu k j j' hj]

end Idealize.ShloMosaic.ValueIdx

end
-- ==== Proof.Region0.lean ====
/-
  Launch 0 of the row-tiled linear kernel, read as one array.

  The grid has fifty points; point `t` takes rows `2000·t … 2000·t + 1999` of the left operand (all 512 columns),
  the whole 512 × 128 weight, and writes rows `2000·t … 2000·t + 1999` of the 100000 × 128 output: the
  row-by-column products of its block with the weight (the operands' change of format is the identity on the
  extended reals, the accumulator starts at zero). A block's entry `(p, q)` sits at array row `2000·t + p`, column
  `q`, so each point writes back its block of ONE array — entry `(r, q)` the sum over `k` of `x (r, k) · w (k, q)` —
  and the fifty blocks tile the output: after the launch the output array is that array.
-/
import proofs.«150639_j4406636445725_1_alg».proof.Proof.Gen.KernelIdeal.Frame
import proofs.«150639_j4406636445725_1_alg».proof.Proof.LibMatmul
import proofs.«150639_j4406636445725_1_alg».proof.Proof.LibPadLinear

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The whole output as one function of the whole operands: entry `(r, q)` is row `r` of `x` against column `q` of `w`. -/
def whole (x : S100000x512.Idx → EReal) (w : S512x128.Idx → EReal) : S100000x128.Idx → EReal :=
  fun i => rowCol (M := 100000) (K := 512) (N := 128) x w (i 0) (i 1)

/-- The body's stored value at `(p, q)`: row `p` of its left block against column `q` of its weight block. -/
theorem stored_apply (x0 : Vec Ideal S2000x512 .f32) (x1 : Vec Ideal S512x128 .f32) (p : Fin 2000) (q : Fin 128) :
    k0_pay1 x0 x1 (ix2 p q) = rowCol (M := 2000) (K := 512) (N := 128) x0 x1 p q := by
  unfold k0_pay1
  simp only [shapeCast_self]
  exact matmul_plain_zero_apply 2000 512 128 none _ _ p q

/-- The stored block against the whole array, at one entry: if the left block's rows are rows `2000·b + p` of `X`,
    the weight block is `Wt`, and block entry `j` sits at array index `i` = (`2000·b + j₀`, `j₁`), the stored value
    at `j` is the whole array's at `i`. -/
theorem stored_eq_whole (X : S100000x512.Idx → EReal) (Wt : S512x128.Idx → EReal)
    (x0 : Vec Ideal S2000x512 .f32) (x1 : Vec Ideal S512x128 .f32) (j : S2000x128.Idx) (i : S100000x128.Idx) (b : ℕ)
    (hx0 : ∀ (p : Fin 2000) (k : Fin 512) (r : Fin 100000), r.val = b * 2000 + p.val → x0 (ix2 p k) = X (ix2 r k))
    (hx1 : ∀ (k : Fin 512) (q : Fin 128), x1 (ix2 k q) = Wt (ix2 k q))
    (hi0 : (i 0).val = b * 2000 + (j 0).val) (hi1 : (i 1).val = (j 1).val) :
    k0_pay1 x0 x1 j = whole X Wt i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have h0 : r.val = b * 2000 + p.val := hi0
  have h1 : s = q := Fin.ext hi1
  subst h1
  rw [stored_apply]
  show rowCol x0 x1 p s = rowCol X Wt r s
  unfold rowCol
  exact Finset.sum_congr rfl fun k _ => by rw [hx0 p k r h0, hx1 k s]

/-- The printed index maps over the grid: the left operand's and the output's row block is the point's own number,
    every column block and the weight's block are the first. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some point's. -/
theorem index_onto : ∀ q0 : Fin 50, ∃ t : Fin cfg0.N, win0_2.index t = ![q0.val, 0] :=
  (by decide +kernel : ∀ q0 : Fin 50, ∃ t : Fin grid0.N, win0_2.index t = ![q0.val, 0])

/-- What point `t` writes back is block `t` of the whole array of the operands as the launch finds them. -/
theorem flushed_eq (c : Dev nD) (t : Fin cfg0.N) :
    (dat0 V c).flushed 2 t = ((cfg0.win 2).blk t).view.read (Elt Ideal) (whole (V c main_arg0) (V c main_v0)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨e0, e1, e2, e3, e4, e5⟩ := index_maps t
  funext j
  show k0_pay1 (iblk0 V c 0 t) (iblk0 V c 1 t) j = whole (V c main_arg0) (V c main_v0) (((cfg0.win 2).blk t).view.emb j)
  refine stored_eq_whole (V c main_arg0) (V c main_v0) (iblk0 V c 0 t) (iblk0 V c 1 t) j (((cfg0.win 2).blk t).view.emb j) t.val ?_ ?_ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 2000 + 1 * p.val = r.val; omega
    | ⟨1, _⟩ => show win0_0.index t (1 : Fin 2) * 512 + 1 * k.val = k.val; omega
  · intro k q
    show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 512 + 1 * k.val = k.val; omega
    | ⟨1, _⟩ => show win0_1.index t (1 : Fin 2) * 128 + 1 * q.val = q.val; omega
  · show win0_2.index t (0 : Fin 2) * 2000 + 1 * (j 0).val = t.val * 2000 + (j 0).val; omega
  · show win0_2.index t (1 : Fin 2) * 128 + 1 * (j 1).val = (j 1).val; omega

/-- An index of the output is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The fifty row blocks tile the output: row `r` is in the block of point `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the launch the output array is the whole product of the operand arrays as the launch found them. -/
theorem final (c : Dev nD) : (dat0 V c).arrAt 2 cfg0.N = whole (V c main_arg0) (V c main_v0) :=
  (dat0 V c).arrAt_eq_of_cover 2 (whole (V c main_arg0) (V c main_v0)) (fun t _ => flushed_eq V c t) covered

end Cert.KernelIdeal.Region0

end
-- ==== Proof.Region1.lean ====
/-
  Launch 1 of the row-tiled linear kernel, read as one array.

  The grid has fifty points; point `t` takes rows `2000·t … 2000·t + 1999` of the left operand (all 16 columns),
  the whole 16 × 128 weight, and writes rows `2000·t … 2000·t + 1999` of the 100000 × 128 output: the
  row-by-column products of its block with the weight (the operands' change of format is the identity on the
  extended reals, the accumulator starts at zero). A block's entry `(p, q)` sits at array row `2000·t + p`, column
  `q`, so each point writes back its block of ONE array — entry `(r, q)` the sum over `k` of `x (r, k) · w (k, q)` —
  and the fifty blocks tile the output: after the launch the output array is that array.
-/
import proofs.«150639_j4406636445725_1_alg».proof.Proof.Gen.KernelIdeal.Frame
import proofs.«150639_j4406636445725_1_alg».proof.Proof.LibMatmul
import proofs.«150639_j4406636445725_1_alg».proof.Proof.LibPadLinear

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The whole output as one function of the whole operands: entry `(r, q)` is row `r` of `x` against column `q` of `w`. -/
def whole (x : S100000x16.Idx → EReal) (w : S16x128.Idx → EReal) : S100000x128.Idx → EReal :=
  fun i => rowCol (M := 100000) (K := 16) (N := 128) x w (i 0) (i 1)

/-- The body's stored value at `(p, q)`: row `p` of its left block against column `q` of its weight block. -/
theorem stored_apply (x0 : Vec Ideal S2000x16 .f32) (x1 : Vec Ideal S16x128 .f32) (p : Fin 2000) (q : Fin 128) :
    k1_pay1 x0 x1 (ix2 p q) = rowCol (M := 2000) (K := 16) (N := 128) x0 x1 p q := by
  unfold k1_pay1
  simp only [shapeCast_self]
  exact matmul_plain_zero_apply 2000 16 128 none _ _ p q

/-- The stored block against the whole array, at one entry: if the left block's rows are rows `2000·b + p` of `X`,
    the weight block is `Wt`, and block entry `j` sits at array index `i` = (`2000·b + j₀`, `j₁`), the stored value
    at `j` is the whole array's at `i`. -/
theorem stored_eq_whole (X : S100000x16.Idx → EReal) (Wt : S16x128.Idx → EReal)
    (x0 : Vec Ideal S2000x16 .f32) (x1 : Vec Ideal S16x128 .f32) (j : S2000x128.Idx) (i : S100000x128.Idx) (b : ℕ)
    (hx0 : ∀ (p : Fin 2000) (k : Fin 16) (r : Fin 100000), r.val = b * 2000 + p.val → x0 (ix2 p k) = X (ix2 r k))
    (hx1 : ∀ (k : Fin 16) (q : Fin 128), x1 (ix2 k q) = Wt (ix2 k q))
    (hi0 : (i 0).val = b * 2000 + (j 0).val) (hi1 : (i 1).val = (j 1).val) :
    k1_pay1 x0 x1 j = whole X Wt i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have h0 : r.val = b * 2000 + p.val := hi0
  have h1 : s = q := Fin.ext hi1
  subst h1
  rw [stored_apply]
  show rowCol x0 x1 p s = rowCol X Wt r s
  unfold rowCol
  exact Finset.sum_congr rfl fun k _ => by rw [hx0 p k r h0, hx1 k s]

/-- The printed index maps over the grid: the left operand's and the output's row block is the point's own number,
    every column block and the weight's block are the first. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block of the output is some point's. -/
theorem index_onto : ∀ q0 : Fin 50, ∃ t : Fin cfg1.N, win1_2.index t = ![q0.val, 0] :=
  (by decide +kernel : ∀ q0 : Fin 50, ∃ t : Fin grid1.N, win1_2.index t = ![q0.val, 0])

/-- What point `t` writes back is block `t` of the whole array of the operands as the launch finds them. -/
theorem flushed_eq (c : Dev nD) (t : Fin cfg1.N) :
    (dat1 V c).flushed 2 t = ((cfg1.win 2).blk t).view.read (Elt Ideal) (whole (V c main_v50) (V c main_v1)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S16x128) zero_offsets]
  obtain ⟨e0, e1, e2, e3, e4, e5⟩ := index_maps t
  funext j
  show k1_pay1 (iblk1 V c 0 t) (iblk1 V c 1 t) j = whole (V c main_v50) (V c main_v1) (((cfg1.win 2).blk t).view.emb j)
  refine stored_eq_whole (V c main_v50) (V c main_v1) (iblk1 V c 0 t) (iblk1 V c 1 t) j (((cfg1.win 2).blk t).view.emb j) t.val ?_ ?_ ?_ ?_
  · intro p k r hr
    show V c main_v50 (((cfg1.win 0).blk t).view.emb (ix2 p k)) = V c main_v50 (ix2 r k)
    refine congrArg (V c main_v50) (funext fun a => Fin.ext ?_)
    match a with
    | ⟨0, _⟩ => show win1_0.index t (0 : Fin 2) * 2000 + 1 * p.val = r.val; omega
    | ⟨1, _⟩ => show win1_0.index t (1 : Fin 2) * 16 + 1 * k.val = k.val; omega
  · intro k q
    show V c main_v1 (((cfg1.win 1).blk t).view.emb (ix2 k q)) = V c main_v1 (ix2 k q)
    refine congrArg (V c main_v1) (funext fun a => Fin.ext ?_)
    match a with
    | ⟨0, _⟩ => show win1_1.index t (0 : Fin 2) * 16 + 1 * k.val = k.val; omega
    | ⟨1, _⟩ => show win1_1.index t (1 : Fin 2) * 128 + 1 * q.val = q.val; omega
  · show win1_2.index t (0 : Fin 2) * 2000 + 1 * (j 0).val = t.val * 2000 + (j 0).val; omega
  · show win1_2.index t (1 : Fin 2) * 128 + 1 * (j 1).val = (j 1).val; omega

/-- An index of the output is in point `t`'s block iff each coordinate is in the block's range on its axis. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v51).slice (win1_2.rect t)).set ↔ _
  rw [View.set_slice_whole, Rect.mem_set_unit]
  exact Iff.rfl

/-- The fifty row blocks tile the output: row `r` is in the block of point `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the launch the output array is the whole product of the operand arrays as the launch found them. -/
theorem final (c : Dev nD) : (dat1 V c).arrAt 2 cfg1.N = whole (V c main_v50) (V c main_v1) :=
  (dat1 V c).arrAt_eq_of_cover 2 (whole (V c main_v50) (V c main_v1)) (fun t _ => flushed_eq V c t) covered

end Cert.KernelIdeal.Region1

end
-- ==== Proof.Linear.lean ====
/-
  The two linear maps: a launch's output, cut back to sixteen columns, is the host's matrix product.

  A launch multiplies its left operand by a weight padded on the right from 16 to 128 columns, and the program then
  keeps the first sixteen columns of the 128-column result. Entry `(r, j)`, `j < 16`, of that result is the sum over
  `k` of `x (r, k)` times the padded weight's entry `(k, j)`, which is the weight's own entry `(k, j)`: the padding's
  columns are never read. That sum is the host's product `x · w` at `(r, j)`. Nothing here needs the entries to be
  finite: the two sides are the same sum of the same products.
-/
import proofs.«150639_j4406636445725_1_alg».proof.Proof.Region0
import proofs.«150639_j4406636445725_1_alg».proof.Proof.Region1
import proofs.«150639_j4406636445725_1_alg».proof.Proof.Gen.ReferenceIdeal

noncomputable section

namespace Cert.Bridge

open Idealize.ShloMosaic Idealize.ShloMosaic.ValueIdx

/-- First layer: features (100000 × 512) by the first weight (512 × 16). -/
theorem linear_first (x : FVec Ideal Cert.KernelIdeal.S100000x512 .f32) (w : FVec Ideal Cert.KernelIdeal.S512x16 .f32)
    (v : Cert.KernelIdeal.S_.Idx → EReal) :
    extractStridedSlice Cert.KernelIdeal.S100000x16 ![0, 0]
        (Cert.KernelIdeal.Region0.whole x (pad Cert.KernelIdeal.S512x128 ![0, 0] ![0, 112] ![0, 0] w v
          Cert.KernelIdeal.Gen.pads_S512x16_S512x128_000_01120 Cert.KernelIdeal.Gen.h_S_))
        Cert.KernelIdeal.Gen.slices_S100000x128_S100000x16_0_0
      = Host.dotGeneral (F := Ideal) Cert.ReferenceIdeal.dot_S100000x512_S512x16_S100000x16_1_0_0_1_n_n none x w := by
  funext i
  obtain ⟨r, j, rfl⟩ : ∃ (r : Fin 100000) (j : Fin 16), i = ix2 r j := ⟨i 0, i 1, eq_ix2 i⟩
  have hj : j.val < 128 := by have := j.isLt; omega
  rw [slice_cols_apply _ _ r j ⟨j.val, hj⟩ rfl]
  show rowCol x (pad Cert.KernelIdeal.S512x128 ![0, 0] ![0, 112] ![0, 0] w v
    Cert.KernelIdeal.Gen.pads_S512x16_S512x128_000_01120 Cert.KernelIdeal.Gen.h_S_) r ⟨j.val, hj⟩ = _
  rw [rowCol_pad_cols ![0, 112] x w v _ _ r j ⟨j.val, hj⟩ rfl]
  exact (dotGeneral_plain_apply 100000 512 16 (φ₁ := .f32) (φ₂ := .f32) none .single x w r j).symm

/-- Second layer: activations (100000 × 16) by the second weight (16 × 16). -/
theorem linear_second (x : FVec Ideal Cert.KernelIdeal.S100000x16 .f32) (w : FVec Ideal Cert.KernelIdeal.S16x16 .f32)
    (v : Cert.KernelIdeal.S_.Idx → EReal) :
    extractStridedSlice Cert.KernelIdeal.S100000x16 ![0, 0]
        (Cert.KernelIdeal.Region1.whole x (pad Cert.KernelIdeal.S16x128 ![0, 0] ![0, 112] ![0, 0] w v
          Cert.KernelIdeal.Gen.pads_S16x16_S16x128_000_01120 Cert.KernelIdeal.Gen.h_S_))
        Cert.KernelIdeal.Gen.slices_S100000x128_S100000x16_0_0
      = Host.dotGeneral (F := Ideal) Cert.ReferenceIdeal.dot_S100000x16_S16x16_S100000x16_1_0_0_1_n_n none x w := by
  funext i
  obtain ⟨r, j, rfl⟩ : ∃ (r : Fin 100000) (j : Fin 16), i = ix2 r j := ⟨i 0, i 1, eq_ix2 i⟩
  have hj : j.val < 128 := by have := j.isLt; omega
  rw [slice_cols_apply _ _ r j ⟨j.val, hj⟩ rfl]
  show rowCol x (pad Cert.KernelIdeal.S16x128 ![0, 0] ![0, 112] ![0, 0] w v
    Cert.KernelIdeal.Gen.pads_S16x16_S16x128_000_01120 Cert.KernelIdeal.Gen.h_S_) r ⟨j.val, hj⟩ = _
  rw [rowCol_pad_cols ![0, 112] x w v _ _ r j ⟨j.val, hj⟩ rfl]
  exact (dotGeneral_plain_apply 100000 16 16 (φ₁ := .f32) (φ₂ := .f32) none .single x w r j).symm

end Cert.Bridge

end
-- ==== Proof.RelGraph.lean ====
/-
  The graph side of both programs, buffer against buffer.

  Before its first launch the kernel's program pads the two weight matrices with zero columns and computes, from
  the edge table alone: the source and target node lists (each row of the table followed by every node's own
  number, a self-loop per node), each node's degree (ones scatter-added at the targets), its inverse square root
  where positive and zero elsewhere, and the edge normaliser (that value gathered at an edge's source times that
  value gathered at its target). The reference computes the same lists and, once per layer, the same normaliser,
  by the same operations on its own buffers. Read from the launch contents on both sides, with the two edge
  tables equal, the corresponding buffers hold the same contents: both sides are one composition of the same
  operations of the same table. The matrix products in between never enter these values.
-/
import proofs.«150639_j4406636445725_1_alg».proof.Proof.RelBase

set_option maxRecDepth 16384

noncomputable section

namespace Cert.Bridge

open Idealize.ShloMosaic Idealize.ShloMosaic.TcCoe Idealize.SL.Sem Idealize.ShloMosaic.StableHlo
open Cert.KernelIdeal.Gen (hostOps0 hostOps0_1 hostOps0_2 hostOps0_3 hostOps0_4 hostOps0_5 hostOps0_6 hostOps1 hostOps1_1 hostOps2 hostOps2_1)
open Cert.ReferenceIdeal.Hand (opsA opsB opsC opsD opsE opsF opsG)

-- a buffer of the kernel's program / of the reference's, as a device buffer
local notation "k[" b "]" => (Proc.devRef (τ := Cert.KernelIdeal.τ) Proc.tc b)
local notation "r[" b "]" => (Proc.devRef (τ := Cert.ReferenceIdeal.τ) Proc.tc b)

open Cert.KernelIdeal in
/-- The kernel's buffers when its first launch is entered: the seven stretches of host operations from contents `X`. -/
local notation "pre[" X "]" => after hostOps0_6 (after hostOps0_5 (after hostOps0_4 (after hostOps0_3 (after hostOps0_2 (after hostOps0_1 (after (hostOps0 (F := Ideal)) X))))))
/-- The reference's buffers after its first normaliser: the segments up to it, from contents `Y`. -/
local notation "refC[" Y "]" => after opsC (after opsB (after (opsA (F := Ideal)) Y))
/-- The reference's buffers after its second normaliser. -/
local notation "refF[" Y "]" => after opsF (after opsE (after opsD (after opsC (after opsB (after (opsA (F := Ideal)) Y)))))

variable (X : VK) (Y : VR)

/-! ## From equal edge tables: the node lists and the normalisers -/

section Graph
variable (h1 : X k[Cert.KernelIdeal.main_arg1] = Y r[Cert.ReferenceIdeal.main_arg1])
include h1

set_option maxHeartbeats 4000000 in
/-- The source list, at the first layer. -/
theorem src_first : pre[X] k[Cert.KernelIdeal.main_v5] = refC[Y] r[Cert.ReferenceIdeal.main_v3] := by
  after_results_simp
  results_rest
  rw [h1]
  rfl

set_option maxHeartbeats 4000000 in
/-- The target list, at the first layer. -/
theorem dst_first : pre[X] k[Cert.KernelIdeal.main_v8] = refC[Y] r[Cert.ReferenceIdeal.main_v6] := by
  after_results_simp
  results_rest
  rw [h1]
  rfl

set_option maxHeartbeats 4000000 in
/-- The edge normaliser, at the first layer. -/
theorem norm_first : pre[X] k[Cert.KernelIdeal.main_v31] = refC[Y] r[Cert.ReferenceIdeal.main_v30] := by
  after_results_simp
  results_rest
  rw [h1]
  rfl

set_option maxHeartbeats 4000000 in
/-- The source list, at the second layer (the reference's list is still in its buffer). -/
theorem src_second : pre[X] k[Cert.KernelIdeal.main_v5] = refF[Y] r[Cert.ReferenceIdeal.main_v3] := by
  after_results_simp
  results_rest
  rw [h1]
  rfl

set_option maxHeartbeats 4000000 in
/-- The target list, at the second layer. -/
theorem dst_second : pre[X] k[Cert.KernelIdeal.main_v8] = refF[Y] r[Cert.ReferenceIdeal.main_v6] := by
  after_results_simp
  results_rest
  rw [h1]
  rfl

set_option maxHeartbeats 4000000 in
/-- The edge normaliser, at the second layer: the kernel keeps the one it computed, the reference computes it again. -/
theorem norm_second : pre[X] k[Cert.KernelIdeal.main_v31] = refF[Y] r[Cert.ReferenceIdeal.main_v63] := by
  after_results_simp
  results_rest
  rw [h1]
  rfl

end Graph

end Cert.Bridge

end
-- ==== Proof.RelLayers.lean ====
/-
  One layer's aggregation, the kernel's buffers against the reference's.

  After a linear map both programs do the same thing to its result `h`: gather `h`'s rows at the edges' sources,
  scale each by its edge's normaliser, scatter-add the rows at the edges' targets into zeros, add the bias; then ELU
  (first layer) or the row-wise log-softmax (second layer). The kernel's `h` is the first sixteen columns of its launch's
  128-column output, the reference's its matrix product's result. Whatever the buffers hold when the layer starts,
  if `h`, the normaliser, the two node lists and the bias agree between the two programs, the layer's results agree:
  both are one composition of the same operations of those five values.
-/
import proofs.«150639_j4406636445725_1_alg».proof.Proof.RelBase

set_option maxRecDepth 16384

noncomputable section

namespace Cert.Bridge

open Idealize.ShloMosaic Idealize.ShloMosaic.TcCoe Idealize.SL.Sem Idealize.ShloMosaic.StableHlo
open Cert.KernelIdeal.Gen (hostOps0 hostOps0_1 hostOps0_2 hostOps0_3 hostOps0_4 hostOps0_5 hostOps0_6 hostOps1 hostOps1_1 hostOps2 hostOps2_1)
open Cert.ReferenceIdeal.Hand (opsA opsB opsC opsD opsE opsF opsG)

-- a buffer of the kernel's program / of the reference's, as a device buffer
local notation "k[" b "]" => (Proc.devRef (τ := Cert.KernelIdeal.τ) Proc.tc b)
local notation "r[" b "]" => (Proc.devRef (τ := Cert.ReferenceIdeal.τ) Proc.tc b)

variable (X : VK) (Y : VR)

set_option maxHeartbeats 4000000 in
/-- The first layer's aggregation and ELU. -/
theorem layer_first
    (hh : extractStridedSlice Cert.KernelIdeal.S100000x16 ![0, 0] (X k[Cert.KernelIdeal.main_v32])
        Cert.KernelIdeal.Gen.slices_S100000x128_S100000x16_0_0 = Y r[Cert.ReferenceIdeal.main_v15])
    (hn : X k[Cert.KernelIdeal.main_v31] = Y r[Cert.ReferenceIdeal.main_v30])
    (hs : X k[Cert.KernelIdeal.main_v5] = Y r[Cert.ReferenceIdeal.main_v3])
    (hd : X k[Cert.KernelIdeal.main_v8] = Y r[Cert.ReferenceIdeal.main_v6])
    (hb : X k[Cert.KernelIdeal.main_arg3] = Y r[Cert.ReferenceIdeal.main_arg3]) :
    after hostOps1_1 (after (hostOps1 (F := Ideal)) X) k[Cert.KernelIdeal.main_v50]
      = after (opsD (F := Ideal)) Y r[Cert.ReferenceIdeal.main_v47] := by
  after_results_simp
  rw [hh, hn, hs, hd, hb]
  rfl

set_option maxHeartbeats 4000000 in
/-- The second layer's aggregation and the log-softmax. -/
theorem layer_second
    (hh : extractStridedSlice Cert.KernelIdeal.S100000x16 ![0, 0] (X k[Cert.KernelIdeal.main_v51])
        Cert.KernelIdeal.Gen.slices_S100000x128_S100000x16_0_0 = Y r[Cert.ReferenceIdeal.main_v48])
    (hn : X k[Cert.KernelIdeal.main_v31] = Y r[Cert.ReferenceIdeal.main_v63])
    (hs : X k[Cert.KernelIdeal.main_v5] = Y r[Cert.ReferenceIdeal.main_v3])
    (hd : X k[Cert.KernelIdeal.main_v8] = Y r[Cert.ReferenceIdeal.main_v6])
    (hb : X k[Cert.KernelIdeal.main_arg5] = Y r[Cert.ReferenceIdeal.main_arg5]) :
    after hostOps2_1 (after (hostOps2 (F := Ideal)) X) k[Cert.KernelIdeal.main_v69]
      = after (opsG (F := Ideal)) Y r[Cert.ReferenceIdeal.main_v80] := by
  after_results_simp
  rw [hh, hn, hs, hd, hb]
  rfl

/-! ## What the first layer leaves alone in the kernel's program -/

/-- The padded second weight. -/
theorem kept_w2 : after hostOps1_1 (after (hostOps1 (F := Ideal)) X) k[Cert.KernelIdeal.main_v1] = X k[Cert.KernelIdeal.main_v1] := by
  after_results
/-- The edge normaliser. -/
theorem kept_norm : after hostOps1_1 (after (hostOps1 (F := Ideal)) X) k[Cert.KernelIdeal.main_v31] = X k[Cert.KernelIdeal.main_v31] := by
  after_results
/-- The source list. -/
theorem kept_src : after hostOps1_1 (after (hostOps1 (F := Ideal)) X) k[Cert.KernelIdeal.main_v5] = X k[Cert.KernelIdeal.main_v5] := by
  after_results
/-- The target list. -/
theorem kept_dst : after hostOps1_1 (after (hostOps1 (F := Ideal)) X) k[Cert.KernelIdeal.main_v8] = X k[Cert.KernelIdeal.main_v8] := by
  after_results
/-- The second bias. -/
theorem kept_b2 : after hostOps1_1 (after (hostOps1 (F := Ideal)) X) k[Cert.KernelIdeal.main_arg5] = X k[Cert.KernelIdeal.main_arg5] := by
  after_results

end Cert.Bridge

end
-- ==== Proof.RelReads.lean ====
/-
  What the stretches of host operations leave in the buffers the two linear maps read.

  In the kernel's program the operations before the first launch leave the features and the two biases as
  launched and write each weight matrix, padded on the right with 112 further columns of one padding value, into
  its own buffer. In the reference's program the first linear map's buffer holds the host's matrix product of the
  features with the first weight, the second's the product of the first layer's activations with the second weight,
  and the operations in between leave the weights and the biases as launched.
-/
import proofs.«150639_j4406636445725_1_alg».proof.Proof.RelBase

set_option maxRecDepth 16384

noncomputable section

namespace Cert.Bridge

open Idealize.ShloMosaic Idealize.ShloMosaic.TcCoe Idealize.SL.Sem Idealize.ShloMosaic.StableHlo
open Cert.KernelIdeal.Gen (hostOps0 hostOps0_1 hostOps0_2 hostOps0_3 hostOps0_4 hostOps0_5 hostOps0_6 hostOps1 hostOps1_1 hostOps2 hostOps2_1)
open Cert.ReferenceIdeal.Hand (opsA opsB opsC opsD opsE opsF opsG)

-- a buffer of the kernel's program / of the reference's, as a device buffer
local notation "k[" b "]" => (Proc.devRef (τ := Cert.KernelIdeal.τ) Proc.tc b)
local notation "r[" b "]" => (Proc.devRef (τ := Cert.ReferenceIdeal.τ) Proc.tc b)
/-- The kernel's buffers when its first launch is entered: the seven stretches of host operations from contents `X`. -/
local notation "pre[" X "]" => after hostOps0_6 (after hostOps0_5 (after hostOps0_4 (after hostOps0_3 (after hostOps0_2 (after hostOps0_1 (after (hostOps0 (F := Ideal)) X))))))
/-- The reference's buffers after its first normaliser: the segments up to it, from contents `Y`. -/
local notation "refC[" Y "]" => after opsC (after opsB (after (opsA (F := Ideal)) Y))
/-- The reference's buffers after its second normaliser. -/
local notation "refF[" Y "]" => after opsF (after opsE (after opsD (after opsC (after opsB (after (opsA (F := Ideal)) Y)))))

variable (X : VK) (Y : VR)

/-! ## The kernel's program before its first launch -/

/-- The features are as launched. -/
theorem pre_features : pre[X] k[Cert.KernelIdeal.main_arg0] = X k[Cert.KernelIdeal.main_arg0] := by
  after_results_simp
/-- The first bias is as launched. -/
theorem pre_bias_first : pre[X] k[Cert.KernelIdeal.main_arg3] = X k[Cert.KernelIdeal.main_arg3] := by
  after_results_simp
/-- The second bias is as launched. -/
theorem pre_bias_second : pre[X] k[Cert.KernelIdeal.main_arg5] = X k[Cert.KernelIdeal.main_arg5] := by
  after_results_simp
/-- The first weight, padded on the right to 128 columns with some padding value. -/
theorem pre_weight_first : ∃ v : Cert.KernelIdeal.S_.Idx → EReal,
    pre[X] k[Cert.KernelIdeal.main_v0]
      = pad Cert.KernelIdeal.S512x128 ![0, 0] ![0, 112] ![0, 0] (X k[Cert.KernelIdeal.main_arg2]) v
          Cert.KernelIdeal.Gen.pads_S512x16_S512x128_000_01120 Cert.KernelIdeal.Gen.h_S_ := by
  refine Exists.intro ?v ?h
  case h =>
    after_results_simp
    rfl
/-- The second weight, padded on the right to 128 columns with some padding value. -/
theorem pre_weight_second : ∃ v : Cert.KernelIdeal.S_.Idx → EReal,
    pre[X] k[Cert.KernelIdeal.main_v1]
      = pad Cert.KernelIdeal.S16x128 ![0, 0] ![0, 112] ![0, 0] (X k[Cert.KernelIdeal.main_arg4]) v
          Cert.KernelIdeal.Gen.pads_S16x16_S16x128_000_01120 Cert.KernelIdeal.Gen.h_S_ := by
  refine Exists.intro ?v ?h
  case h =>
    after_results_simp
    rfl

/-! ## The reference's program -/

/-- The first linear map's buffer: the host's product of the features with the first weight. -/
theorem ref_linear_first : refC[Y] r[Cert.ReferenceIdeal.main_v15]
    = Host.dotGeneral (F := Ideal) (φ₁ := .f32) (φ₂ := .f32) Cert.ReferenceIdeal.dot_S100000x512_S512x16_S100000x16_1_0_0_1_n_n none
        (Y r[Cert.ReferenceIdeal.main_arg0]) (Y r[Cert.ReferenceIdeal.main_arg2]) := by
  after_results_simp
/-- The first bias is as launched. -/
theorem ref_bias_first : refC[Y] r[Cert.ReferenceIdeal.main_arg3] = Y r[Cert.ReferenceIdeal.main_arg3] := by
  after_results_simp
/-- The second weight is as launched after the first layer. -/
theorem ref_weight_second : after (opsD (F := Ideal)) (refC[Y]) r[Cert.ReferenceIdeal.main_arg4] = Y r[Cert.ReferenceIdeal.main_arg4] := by
  after_results_simp
/-- The second linear map's buffer, after the second normaliser: the host's product of the activations with the
    second weight, from whatever contents `Z` the first layer left. -/
theorem ref_linear_second (Z : VR) : after opsF (after (opsE (F := Ideal)) Z) r[Cert.ReferenceIdeal.main_v48]
    = Host.dotGeneral (F := Ideal) (φ₁ := .f32) (φ₂ := .f32) Cert.ReferenceIdeal.dot_S100000x16_S16x16_S100000x16_1_0_0_1_n_n none
        (Z r[Cert.ReferenceIdeal.main_v47]) (Z r[Cert.ReferenceIdeal.main_arg4]) := by
  after_results_simp
/-- The second bias is as launched. -/
theorem ref_bias_second : refF[Y] r[Cert.ReferenceIdeal.main_arg5] = Y r[Cert.ReferenceIdeal.main_arg5] := by
  after_results_simp

end Cert.Bridge

end
-- ==== Proof.Value.lean ====
/-
  The two programs' results are the same array.

  From memories that agree on the six arguments, follow the kernel's program segment by segment against the
  reference's. Before the first launch both hold the same node lists and the same edge normaliser (they are
  functions of the edge table alone). The first launch leaves the product of the features with the padded first
  weight; its first sixteen columns are the reference's product with the weight itself. So the first layer's
  aggregation and ELU, the same operations on equal values, leave equal activations. The second launch and the
  second layer repeat this with the activations and the second weight, and the log-softmax of equal arrays is the
  result of both programs.
-/
import proofs.«150639_j4406636445725_1_alg».proof.Proof.KRun
import proofs.«150639_j4406636445725_1_alg».proof.Proof.Linear
import proofs.«150639_j4406636445725_1_alg».proof.Proof.RelGraph
import proofs.«150639_j4406636445725_1_alg».proof.Proof.RelLayers
import proofs.«150639_j4406636445725_1_alg».proof.Proof.RelReads
import proofs.«150639_j4406636445725_1_alg».proof.Proof.RefRun

set_option maxRecDepth 16384

noncomputable section

namespace Cert.Bridge

open Idealize.ShloMosaic Idealize.ShloMosaic.TcCoe Idealize.SL.Sem Idealize.ShloMosaic.StableHlo
open Cert.KernelIdeal.Gen (hostOps0 hostOps0_1 hostOps0_2 hostOps0_3 hostOps0_4 hostOps0_5 hostOps0_6 hostOps1 hostOps1_1 hostOps2 hostOps2_1
  W0 W7 W8 W10 W11 W13 V7 V10 W8_arr W8_of_ne W11_arr W11_of_ne)
open Cert.ReferenceIdeal.Hand (opsA opsB opsC opsD opsE opsF opsG ops)

-- a buffer of the kernel's program / of the reference's, as a device buffer
local notation "k[" b "]" => (Proc.devRef (τ := Cert.KernelIdeal.τ) Proc.tc b)
local notation "r[" b "]" => (Proc.devRef (τ := Cert.ReferenceIdeal.τ) Proc.tc b)
/-- The reference's buffers after its first normaliser, from contents `Y`. -/
local notation "refC[" Y "]" => after opsC (after opsB (after (opsA (F := Ideal)) Y))
/-- The reference's buffers after its second normaliser. -/
local notation "refF[" Y "]" => after opsF (after opsE (after opsD (after opsC (after opsB (after (opsA (F := Ideal)) Y)))))

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

set_option maxHeartbeats 1000000 in
/-- On each device: the kernel program's result buffer at the last segment boundary holds what the reference's
    operations, folded over its launch contents, leave in its result buffer. -/
theorem result_eq (c : Dev Cert.KernelIdeal.nD)
    (a0 : W0 m ρ c k[Cert.KernelIdeal.main_arg0] = launchContents m' c r[Cert.ReferenceIdeal.main_arg0])
    (a1 : W0 m ρ c k[Cert.KernelIdeal.main_arg1] = launchContents m' c r[Cert.ReferenceIdeal.main_arg1])
    (a2 : W0 m ρ c k[Cert.KernelIdeal.main_arg2] = launchContents m' c r[Cert.ReferenceIdeal.main_arg2])
    (a3 : W0 m ρ c k[Cert.KernelIdeal.main_arg3] = launchContents m' c r[Cert.ReferenceIdeal.main_arg3])
    (a4 : W0 m ρ c k[Cert.KernelIdeal.main_arg4] = launchContents m' c r[Cert.ReferenceIdeal.main_arg4])
    (a5 : W0 m ρ c k[Cert.KernelIdeal.main_arg5] = launchContents m' c r[Cert.ReferenceIdeal.main_arg5]) :
    W13 m ρ c k[Cert.KernelIdeal.main_v69]
      = after (ops (F := Ideal)) (launchContents m' c) r[Cert.ReferenceIdeal.main_v80] := by
  -- before the first launch: the node lists, the normaliser (for both layers), the operands of the two linear maps
  have s1 : W7 m ρ c k[Cert.KernelIdeal.main_v5] = refC[launchContents m' c] r[Cert.ReferenceIdeal.main_v3] :=
    src_first (W0 m ρ c) (launchContents m' c) a1
  have d1 : W7 m ρ c k[Cert.KernelIdeal.main_v8] = refC[launchContents m' c] r[Cert.ReferenceIdeal.main_v6] :=
    dst_first (W0 m ρ c) (launchContents m' c) a1
  have n1 : W7 m ρ c k[Cert.KernelIdeal.main_v31] = refC[launchContents m' c] r[Cert.ReferenceIdeal.main_v30] :=
    norm_first (W0 m ρ c) (launchContents m' c) a1
  have s2 : W7 m ρ c k[Cert.KernelIdeal.main_v5] = refF[launchContents m' c] r[Cert.ReferenceIdeal.main_v3] :=
    src_second (W0 m ρ c) (launchContents m' c) a1
  have d2 : W7 m ρ c k[Cert.KernelIdeal.main_v8] = refF[launchContents m' c] r[Cert.ReferenceIdeal.main_v6] :=
    dst_second (W0 m ρ c) (launchContents m' c) a1
  have n2 : W7 m ρ c k[Cert.KernelIdeal.main_v31] = refF[launchContents m' c] r[Cert.ReferenceIdeal.main_v63] :=
    norm_second (W0 m ρ c) (launchContents m' c) a1
  have x7 : W7 m ρ c k[Cert.KernelIdeal.main_arg0] = W0 m ρ c k[Cert.KernelIdeal.main_arg0] := pre_features (W0 m ρ c)
  have b7 : W7 m ρ c k[Cert.KernelIdeal.main_arg3] = W0 m ρ c k[Cert.KernelIdeal.main_arg3] := pre_bias_first (W0 m ρ c)
  have c7 : W7 m ρ c k[Cert.KernelIdeal.main_arg5] = W0 m ρ c k[Cert.KernelIdeal.main_arg5] := pre_bias_second (W0 m ρ c)
  obtain ⟨v1, w7'⟩ := pre_weight_first (W0 m ρ c)
  have w7 : W7 m ρ c k[Cert.KernelIdeal.main_v0]
      = pad Cert.KernelIdeal.S512x128 ![0, 0] ![0, 112] ![0, 0] (W0 m ρ c k[Cert.KernelIdeal.main_arg2]) v1
          Cert.KernelIdeal.Gen.pads_S512x16_S512x128_000_01120 Cert.KernelIdeal.Gen.h_S_ := w7'
  obtain ⟨v2, u7'⟩ := pre_weight_second (W0 m ρ c)
  have u7 : W7 m ρ c k[Cert.KernelIdeal.main_v1]
      = pad Cert.KernelIdeal.S16x128 ![0, 0] ![0, 112] ![0, 0] (W0 m ρ c k[Cert.KernelIdeal.main_arg4]) v2
          Cert.KernelIdeal.Gen.pads_S16x16_S16x128_000_01120 Cert.KernelIdeal.Gen.h_S_ := u7'
  -- the first launch: its output is the whole product; every other buffer is as it was
  have o8 : W8 m ρ c k[Cert.KernelIdeal.main_v32]
      = Cert.KernelIdeal.Region0.whole (W7 m ρ c k[Cert.KernelIdeal.main_arg0]) (W7 m ρ c k[Cert.KernelIdeal.main_v0]) :=
    (W8_arr m ρ c 2).trans (Cert.KernelIdeal.Region0.final (V7 m ρ) c)
  have n8 : W8 m ρ c k[Cert.KernelIdeal.main_v31] = W7 m ρ c k[Cert.KernelIdeal.main_v31] := W8_of_ne m ρ c Cert.KernelIdeal.main_v31 (by decide)
  have s8 : W8 m ρ c k[Cert.KernelIdeal.main_v5] = W7 m ρ c k[Cert.KernelIdeal.main_v5] := W8_of_ne m ρ c Cert.KernelIdeal.main_v5 (by decide)
  have d8 : W8 m ρ c k[Cert.KernelIdeal.main_v8] = W7 m ρ c k[Cert.KernelIdeal.main_v8] := W8_of_ne m ρ c Cert.KernelIdeal.main_v8 (by decide)
  have b8 : W8 m ρ c k[Cert.KernelIdeal.main_arg3] = W7 m ρ c k[Cert.KernelIdeal.main_arg3] := W8_of_ne m ρ c Cert.KernelIdeal.main_arg3 (by decide)
  have u8 : W8 m ρ c k[Cert.KernelIdeal.main_v1] = W7 m ρ c k[Cert.KernelIdeal.main_v1] := W8_of_ne m ρ c Cert.KernelIdeal.main_v1 (by decide)
  have c8 : W8 m ρ c k[Cert.KernelIdeal.main_arg5] = W7 m ρ c k[Cert.KernelIdeal.main_arg5] := W8_of_ne m ρ c Cert.KernelIdeal.main_arg5 (by decide)
  -- the first linear map: the launch's first sixteen columns are the reference's product
  have hh1 : extractStridedSlice Cert.KernelIdeal.S100000x16 ![0, 0] (W8 m ρ c k[Cert.KernelIdeal.main_v32])
      Cert.KernelIdeal.Gen.slices_S100000x128_S100000x16_0_0 = refC[launchContents m' c] r[Cert.ReferenceIdeal.main_v15] := by
    rw [o8, x7, w7, linear_first, ref_linear_first, a0, a2]
  -- the first layer
  have l1 : W10 m ρ c k[Cert.KernelIdeal.main_v50]
      = after (opsD (F := Ideal)) (refC[launchContents m' c]) r[Cert.ReferenceIdeal.main_v47] :=
    layer_first (W8 m ρ c) (refC[launchContents m' c]) hh1 (n8.trans n1) (s8.trans s1) (d8.trans d1)
      (b8.trans (b7.trans (a3.trans (ref_bias_first (launchContents m' c)).symm)))
  have u10 : W10 m ρ c k[Cert.KernelIdeal.main_v1] = W8 m ρ c k[Cert.KernelIdeal.main_v1] := kept_w2 (W8 m ρ c)
  have n10 : W10 m ρ c k[Cert.KernelIdeal.main_v31] = W8 m ρ c k[Cert.KernelIdeal.main_v31] := kept_norm (W8 m ρ c)
  have s10 : W10 m ρ c k[Cert.KernelIdeal.main_v5] = W8 m ρ c k[Cert.KernelIdeal.main_v5] := kept_src (W8 m ρ c)
  have d10 : W10 m ρ c k[Cert.KernelIdeal.main_v8] = W8 m ρ c k[Cert.KernelIdeal.main_v8] := kept_dst (W8 m ρ c)
  have c10 : W10 m ρ c k[Cert.KernelIdeal.main_arg5] = W8 m ρ c k[Cert.KernelIdeal.main_arg5] := kept_b2 (W8 m ρ c)
  -- the second launch
  have o11 : W11 m ρ c k[Cert.KernelIdeal.main_v51]
      = Cert.KernelIdeal.Region1.whole (W10 m ρ c k[Cert.KernelIdeal.main_v50]) (W10 m ρ c k[Cert.KernelIdeal.main_v1]) :=
    (W11_arr m ρ c 2).trans (Cert.KernelIdeal.Region1.final (V10 m ρ) c)
  have n11 : W11 m ρ c k[Cert.KernelIdeal.main_v31] = W10 m ρ c k[Cert.KernelIdeal.main_v31] := W11_of_ne m ρ c Cert.KernelIdeal.main_v31 (by decide)
  have s11 : W11 m ρ c k[Cert.KernelIdeal.main_v5] = W10 m ρ c k[Cert.KernelIdeal.main_v5] := W11_of_ne m ρ c Cert.KernelIdeal.main_v5 (by decide)
  have d11 : W11 m ρ c k[Cert.KernelIdeal.main_v8] = W10 m ρ c k[Cert.KernelIdeal.main_v8] := W11_of_ne m ρ c Cert.KernelIdeal.main_v8 (by decide)
  have c11 : W11 m ρ c k[Cert.KernelIdeal.main_arg5] = W10 m ρ c k[Cert.KernelIdeal.main_arg5] := W11_of_ne m ρ c Cert.KernelIdeal.main_arg5 (by decide)
  -- the second linear map
  have hh2 : extractStridedSlice Cert.KernelIdeal.S100000x16 ![0, 0] (W11 m ρ c k[Cert.KernelIdeal.main_v51])
      Cert.KernelIdeal.Gen.slices_S100000x128_S100000x16_0_0 = refF[launchContents m' c] r[Cert.ReferenceIdeal.main_v48] := by
    rw [o11, l1, u10, u8, u7, linear_second, ref_linear_second, ref_weight_second, a4]
  -- the second layer, and the reference's list as its seven segments in turn
  have l2 : W13 m ρ c k[Cert.KernelIdeal.main_v69]
      = after (opsG (F := Ideal)) (refF[launchContents m' c]) r[Cert.ReferenceIdeal.main_v80] :=
    layer_second (W11 m ρ c) (refF[launchContents m' c]) hh2 (n11.trans (n10.trans (n8.trans n2)))
      (s11.trans (s10.trans (s8.trans s2))) (d11.trans (d10.trans (d8.trans d2)))
      (c11.trans (c10.trans (c8.trans (c7.trans (a5.trans (ref_bias_second (launchContents m' c)).symm)))))
  refine l2.trans ?_
  rw [show (ops (F := Ideal)) = opsA ++ opsB ++ opsC ++ opsD ++ opsE ++ opsF ++ opsG from rfl,
    after_append, after_append, after_append, after_append, after_append, after_append]

end Cert.Bridge

end
-- ==== Proof.lean ====
/-
  A two-layer graph convolution: the tiled kernel against its reference, over the extended reals.

  Both programs build the same graph data from the edge table (source and target lists with a self-loop per node,
  the degree's inverse square root, the edge normaliser), and per layer apply a linear map, gather the transformed
  rows at the sources, scale by the normaliser, scatter-add at the targets and add a bias; ELU between the layers,
  a row-wise log-softmax at the end. They differ only in the linear maps: the reference multiplies by the weight
  (100000 × 512 by 512 × 16, then 100000 × 16 by 16 × 16); the kernel pads the weight on the right to 128 columns,
  multiplies row block by row block in fifty launches of 2000 rows (operands taken to a narrower format on the way
  in, which on the extended reals is the identity), and keeps the first sixteen columns. Column `j < 16` of the
  padded product is the sum over `k` of `x (r, k) · w (k, j)`: the reference's entry. So the two results are the
  same composition of the same operations of equal values; no step needs the entries to be finite.

  The kernel's frame at both instances is the generated one; the reference, a host-only program, runs as the list
  of its operations, which also gives its frame; the idealization rewrote nothing, so `preserves` is `True`.
-/
import proofs.«150639_j4406636445725_1_alg».proof.Defs
import proofs.«150639_j4406636445725_1_alg».proof.Proof.Gen.Kernel
import proofs.«150639_j4406636445725_1_alg».proof.Proof.Gen.Kernel.Frame
import proofs.«150639_j4406636445725_1_alg».proof.Proof.Gen.KernelIdeal
import proofs.«150639_j4406636445725_1_alg».proof.Proof.Gen.KernelIdeal.Frame
import proofs.«150639_j4406636445725_1_alg».proof.Proof.Gen.ReferenceIdeal
import proofs.«150639_j4406636445725_1_alg».proof.Proof.Gen.Pre_finite_inputs
import proofs.«150639_j4406636445725_1_alg».proof.Proof.KRun
import proofs.«150639_j4406636445725_1_alg».proof.Proof.RefRun
import proofs.«150639_j4406636445725_1_alg».proof.Proof.RefArgs
import proofs.«150639_j4406636445725_1_alg».proof.Proof.Value
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs, and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs as the list of its host operations, none of which writes an argument. -/
theorem frame_reference : Cert.frame_ReferenceIdeal := fun m ρ _ =>
  (θ_run Cert.ReferenceIdeal.defs _ _).mono (fun r h c =>
      ⟨(h c Cert.ReferenceIdeal.main_arg0).trans (Cert.Bridge.ref_kept_arg0 (launchContents m c)),
       (h c Cert.ReferenceIdeal.main_arg1).trans (Cert.Bridge.ref_kept_arg1 (launchContents m c)),
       (h c Cert.ReferenceIdeal.main_arg2).trans (Cert.Bridge.ref_kept_arg2 (launchContents m c)),
       (h c Cert.ReferenceIdeal.main_arg3).trans (Cert.Bridge.ref_kept_arg3 (launchContents m c)),
       (h c Cert.ReferenceIdeal.main_arg4).trans (Cert.Bridge.ref_kept_arg4 (launchContents m c)),
       (h c Cert.ReferenceIdeal.main_arg5).trans (Cert.Bridge.ref_kept_arg5 (launchContents m c))⟩)
    (Cert.ReferenceIdeal.Hand.run_main (F := Ideal) m ρ)

/-- The idealization rewrote no operation. -/
theorem preserves : Cert.preserves_Kernel_KernelIdeal := trivial

/-- From memories agreeing on the arguments both idealized programs run, and end with the same result array: the
    kernel's at the contents of its last segment boundary, the reference's at the fold of its operations, which are
    equal device by device. -/
theorem algebraic : Cert.algebraic_KernelIdeal_ReferenceIdeal := by
  intro m ρ m' ρ' _ hagree
  refine ⟨fun c => Cert.KernelIdeal.Gen.W13 m ρ c (Proc.devRef .tc Cert.KernelIdeal.main_v69),
    Cert.KernelIdeal.Hand.run_out m ρ, ?_⟩
  refine (θ_run Cert.ReferenceIdeal.defs _ _).mono (fun r h c => ⟨?_, ?_, ?_, ?_, ?_, ?_, ?_⟩)
    (Cert.ReferenceIdeal.Hand.run_main (F := Ideal) m' ρ')
  · obtain ⟨h0, h1, h2, h3, h4, h5⟩ := hagree c
    exact (h c Cert.ReferenceIdeal.main_v80).trans
      (Cert.Bridge.result_eq m ρ m' c h0.symm h1.symm h2.symm h3.symm h4.symm h5.symm).symm
  · exact (h c Cert.ReferenceIdeal.main_arg0).trans (Cert.Bridge.ref_kept_arg0 (launchContents m' c))
  · exact (h c Cert.ReferenceIdeal.main_arg1).trans (Cert.Bridge.ref_kept_arg1 (launchContents m' c))
  · exact (h c Cert.ReferenceIdeal.main_arg2).trans (Cert.Bridge.ref_kept_arg2 (launchContents m' c))
  · exact (h c Cert.ReferenceIdeal.main_arg3).trans (Cert.Bridge.ref_kept_arg3 (launchContents m' c))
  · exact (h c Cert.ReferenceIdeal.main_arg4).trans (Cert.Bridge.ref_kept_arg4 (launchContents m' c))
  · exact (h c Cert.ReferenceIdeal.main_arg5).trans (Cert.Bridge.ref_kept_arg5 (launchContents m' c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
